-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192 : Shape := ⟨1, ![8192]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : IVec S8192 32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  main_v3
-- ==== Kernel.lean ====
abbrev S8192x256 : Shape := ⟨2, ![8192, 256]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S1024x256 : Shape := ⟨2, ![1024, 256]⟩
abbrev S1024x1 : Shape := ⟨2, ![1024, 1]⟩
abbrev S1x1024 : Shape := ⟨2, ![1, 1024]⟩
abbrev S1024x1024 : Shape := ⟨2, ![1024, 1024]⟩

abbrev nBuf : Space → Nat
  | .hbm => 19
  | .vmem => 16
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S1x8192, .f32⟩
  | .hbm, ⟨14, _⟩ => ⟨S8192x256, .bf16⟩
  | .hbm, ⟨15, _⟩ => ⟨S8192x1, .i32⟩
  | .hbm, ⟨16, _⟩ => ⟨S1x8192, .i32⟩
  | .hbm, ⟨17, _⟩ => ⟨S8192x8192, .f32⟩
  | .hbm, ⟨18, _⟩ => ⟨S8192x8192, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1024x1, .i32⟩
  | .local _ .vmem, ⟨5, _⟩ => ⟨S1024x1, .i32⟩
  | .local _ .vmem, ⟨6, _⟩ => ⟨S1x1024, .i32⟩
  | .local _ .vmem, ⟨7, _⟩ => ⟨S1x1024, .i32⟩
  | .local _ .vmem, ⟨8, _⟩ => ⟨S1024x1, .f32⟩
  | .local _ .vmem, ⟨9, _⟩ => ⟨S1024x1, .f32⟩
  | .local _ .vmem, ⟨10, _⟩ => ⟨S1x1024, .f32⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | .local _ .vmem, ⟨15, _⟩ => ⟨S1024x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  shapeCasts_S8192x1_S1x8192 : S8192x1.ShapeCasts S1x8192
  bitsLt_bf16_f32 : FTy.bits .bf16 < FTy.bits .f32
  shapeCasts_S8192_S8192x1 : S8192.ShapeCasts S8192x1
  shapeCasts_S8192_S1x8192 : S8192.ShapeCasts S1x8192
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x1024_S1024x1024_0_0 : ∀ a, (![0, 0] : Fin 2 → Nat) a + S1024x1024.size a ≤ S1024x1024.size a
  h_S1024x1024 : 0 < S1024x1024.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  dot_S1024x256_S1024x256_S1024x1024_1_1_0_0_n_n_wf : DotDims.WF S1024x256 S1024x256 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .bf16 = 32 ∨ (Rect.block (s := S8192x256) S1024x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S8192x256.size a
  hwx0_1 : ∀ i : grid0.Coords, EltTy.bits .bf16 = 32 ∨ (Rect.block (s := S8192x256) S1024x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .i32 = 32 ∨ (Rect.block (s := S1x8192) S1x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x8192.size a
  hwx0_5 : ∀ i : grid0.Coords, EltTy.bits .f32 = 32 ∨ (Rect.block (s := S1x8192) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S8192x8192.size a
  hwx0_6 : ∀ i : grid0.Coords, EltTy.bits .f32 = 32 ∨ (Rect.block (s := S8192x8192) S1024x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S8192x8192.size a
  hwx0_7 : ∀ i : grid0.Coords, EltTy.bits .f32 = 32 ∨ (Rect.block (s := S8192x8192) S1024x1024.size (cc0_transform_7 i) (hinb0_7 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_v6) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v9_0) S1024x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v9_1) S1024x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x256 : Shape := ⟨2, ![8192, 256]⟩
abbrev S8192 : Shape := ⟨1, ![8192]⟩
abbrev S256x8192 : Shape := ⟨2, ![256, 8192]⟩
abbrev S8192x8192 : Shape := ⟨2, ![8192, 8192]⟩
abbrev S_ : Shape := ⟨0, ![]⟩
abbrev S8192x1 : Shape := ⟨2, ![8192, 1]⟩
abbrev S1x8192 : Shape := ⟨2, ![1, 8192]⟩

abbrev nBuf : Space → Nat
  | .hbm => 32
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S256x8192, .f32⟩
  | .hbm, ⟨3, _⟩ => ⟨S8192x8192, .f32⟩
  | .hbm, ⟨4, _⟩ => ⟨S8192x8192, .f32⟩
  | .hbm, ⟨5, _⟩ => ⟨S8192x8192, .f32⟩
  | .hbm, ⟨6, _⟩ => ⟨S_, .f32⟩
  | .hbm, ⟨7, _⟩ => ⟨S8192x8192, .f32⟩
  | .hbm, ⟨8, _⟩ => ⟨S8192x8192, .f32⟩
  | .hbm, ⟨9, _⟩ => ⟨S_, .f32⟩
  | .hbm, ⟨10, _⟩ => ⟨S8192x8192, .f32⟩
  | .hbm, ⟨11, _⟩ => ⟨S8192x8192, .f32⟩
  | .hbm, ⟨12, _⟩ => ⟨S8192x256, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x256, .f32⟩
  | .hbm, ⟨21, _⟩ => ⟨S8192x256, .f32⟩
  | .hbm, ⟨22, _⟩ => ⟨S256x8192, .f32⟩
  | .hbm, ⟨23, _⟩ => ⟨S8192x8192, .f32⟩
  | .hbm, ⟨24, _⟩ => ⟨S8192x1, .i32⟩
  | .hbm, ⟨25, _⟩ => ⟨S1x8192, .i32⟩
  | .hbm, ⟨26, _⟩ => ⟨S8192x8192, .i32⟩
  | .hbm, ⟨27, _⟩ => ⟨S8192x8192, .i32⟩
  | .hbm, ⟨28, _⟩ => ⟨S8192x8192, .i1⟩
  | .hbm, ⟨29, _⟩ => ⟨S_, .f32⟩
  | .hbm, ⟨30, _⟩ => ⟨S8192x8192, .f32⟩
  | .hbm, ⟨31, _⟩ => ⟨S8192x8192, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_call0_v0 : Ref sig .tc := ⟨.hbm, 12, rfl⟩
abbrev main_call0_cst : Ref sig .tc := ⟨.hbm, 13, rfl⟩
abbrev main_call0_v1 : Ref sig .tc := ⟨.hbm, 14, rfl⟩
abbrev main_call0_v2 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_call1_v0 : Ref sig .tc := ⟨.hbm, 30, rfl⟩
abbrev main_v20 : Ref sig .tc := ⟨.hbm, 31, rfl⟩

abbrev nD : Nat := 1
abbrev τ : Topo := Topo.v7x

variable {F : FTy → Type} [FloatOps F]

class Facts₀ : Prop where
  transposes_S8192x256_S256x8192_1_0 : S8192x256.Transposes [1, 0] S256x8192
  bcast_S_S8192x8192 : S_.BroadcastsInDim S8192x8192 (![] : Fin 0 → Fin S8192x8192.rank)
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.LibFrameShared.lean ====
/-
  The frame run of a one-region pipeline kernel whose INPUT WINDOWS MAY SHARE AN ARRAY.

  A pipeline hands each window's array to the kernel as one points-to.  When two input windows read the
  same array (the same matrix staged once by rows of the result and once by its columns), the array's full
  share cannot be given to both: it is divided among the windows on it, and the proof data's `q` names each
  window's part.  How the distinct buffers behind the arrays, each whole at the full share, become the
  per-window points-tos is the hypothesis `hsplit`; everything else is as in the frame run for distinct
  arrays: the kernel keeps no semaphore of its own, the scoped buffers that are no staging buffer pass
  through the invariant, every unscoped buffer that is no window's array bypasses the region and is read
  back unchanged, and every window's array ends at what the write-backs of the proof data leave in it.
  The generator register is not handed to the body here (a body that draws random bits needs another road).
-/
import Idealize.ShloMosaic.Lib.Pipeline.Frame

noncomputable section

namespace Idealize.ShloMosaic

open Idealize.SL
open Idealize.SL.BI (sProp bigSep bigSep_map)
open scoped Idealize.SL.BI
open Idealize.SL.BI.BIBase Idealize.SL.BI.Laws Idealize.SL.Sem Idealize.SL.ProofMode
open Idealize.SL.RA
open TcCoe

set_option Elab.async false

variable {nD : Nat} {τ : Topo} {sig : RefSig} {Val : EltTy → Type}

namespace Pipeline

open Idealize.ShloMosaic.Rounds

section FrameShared

variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝔻" => Pipeline.defs (fun q => Cfg.toPCfg (Val := Val) (cfgs q)) defs₀

/-- Every weakly fair execution of @main terminates without a fault; at the end each window's array holds what
    the proof data's write-backs leave (`Dat.arrAt … N`: an input array its entry contents), and every other
    unscoped buffer what it held when the region was entered.  The windows' arrays need not be distinct: `hsplit`
    says how the buffers behind them are dealt among the windows. -/
theorem θ_run_frame_shared
    (hinj : Function.Injective (cellOf (nD := nD) (τ := τ) cfgs))
    (hw : WinFacts₀ (cfg).spec)
    (hne : ∀ w : Fin (cfg).W, 0 < ((cfg).spec w).block.numel)
    (harr : ∀ w, ((cfg).spec w).arr.IsWhole) (hstage : ∀ w s, (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfg).spec c (V c) : sProp 𝕄) ⊢ (dats p c).arrays ((dats p c).arrAt · 0))
    (hin : ∀ c, (scopedRest (cfg).spec c : sProp 𝕄) ⊢ (dats p c).Φ 0)
    (hout : ∀ c, (dats p c).Φ (Fin.last (cfg).N) ⊢ (scopedRest (cfg).spec c : sProp 𝕄)) :
    θ_run 𝔻 (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj)) (hu₀ := .rfl)
    (V := V) (hmain := hmain) (hsplit := hsplit)
    (X := fun _ => iprop(emp)) (Y := fun _ => iprop(emp))
    (Z := fun c => unscopedRest (Ix := Unit) (Name := ℕ) (U := UR sig nD τ) (Lvl := ℕ) (cfg).spec c (V c))
    (hX := fun c => by
      iintro H
      isplitr [H]
      · iempintro
      · iexact H)
    (hin := fun c => (show _ ⊢ (scopedRest (cfg).spec c : sProp 𝕄) from by iintro ⟨-, H⟩; iexact H).trans (hin c))
    (hout := fun c => (hout c).trans (by
      iintro H
      isplitr [H]
      · iempintro
      · iexact H))
    (QY := fun c s => ∀ b ∈ restRefs sig (cfg).spec, s.mem ((c.tc : Thread nD τ).loc b) = V c b)
    (hY := fun c s' => by
      iintro ⟨-, HU, HSI⟩
      unfold unscopedRest
      imodintro
      iapply (pointsTo_read_all (restRefs sig (cfg).spec) (fun b => (c.tc : Thread nD τ).loc b) (V c) s')
      isplitl [HU] <;> iassumption)
    (hQ := fun s h c => ⟨(h c).1, (h c).2⟩)

end FrameShared

end Pipeline

end Idealize.ShloMosaic

end
-- ==== Proof.RegionKernel.lean ====
/-
  The run of the program's one pipelined region, with every array named.

  The region's grid is 8 × 8.  At point (i, j) the pipeline stages rows 1024·i … 1024·i+1023 of the bf16 copy of
  Z (window 0), rows 1024·j … 1024·j+1023 of THE SAME array (window 1), the matching 1024 graph ids as a column
  (window 2) and as a row (window 3), the matching inverse norms as a column (window 4) and as a row (window 5);
  the body stores one 1024 × 1024 tile into each of the two results (windows 6 and 7), and the tile is written
  back at block (i, j).  Two windows read one array, so its full share is dealt in halves between them.

  Stated for any float instance, so that the word-level program and its idealization share the text.
-/
import proofs.«156037_j34548716929568_2_alg».proof.Proof.Gen.Kernel.Launch
import proofs.«156037_j34548716929568_2_alg».proof.Proof.Gen.Kernel.Skeleton
import proofs.«156037_j34548716929568_2_alg».proof.Proof.Gen.Kernel.Points
import proofs.«156037_j34548716929568_2_alg».proof.Proof.LibFrameShared
import Idealize.ShloMosaic.Lib.Pipeline.FrameBody
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- The core's buffers when the region is entered: the launch contents after the row norms' five operations and
    the ten operations that clamp, invert and re-lay them, narrow Z and re-lay the graph ids. -/
abbrev V (c : Dev nD) (b : Ref sig .tc) : Buf (Elt F) ((c : Thread nD τ).loc b) :=
  StableHlo.after (List.flatten [hostOps0, hostOps0_1]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor

/-- @main is those two lines of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1] (by simp only [List.Forall]; exact ⟨hostOps0_sub, hostOps0_1_sub⟩)
    (by simp only [List.Forall]; exact ⟨hostOps0_fresh, hostOps0_1_fresh⟩) main_chain

/-- No host operation writes Z: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.reshape_writes,
      StableHlo.ternary_writes, StableHlo.quaternary_writes, StableHlo.binaryIndexed_writes, Finset.mem_singleton]
    repeat' apply And.intro
    all_goals exact StableHlo.devRef_ne_of_ne (by decide)))
/-- No host operation writes the graph ids either. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.reshape_writes,
      StableHlo.ternary_writes, StableHlo.quaternary_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses and what its two stores leave -/

abbrev rZ : Rect S1024x256 := Rect.unit (s := S1024x256) ![0, 0] S1024x256.size inb_S1024x256_S1024x256_0_0
abbrev rCol : Rect S1024x1 := Rect.unit (s := S1024x1) ![0, 0] S1024x1.size inb_S1024x1_S1024x1_0_0
abbrev rRow : Rect S1x1024 := Rect.unit (s := S1x1024) ![0, 0] S1x1024.size inb_S1x1024_S1x1024_0_0
abbrev rTile : Rect S1024x1024 := Rect.unit (s := S1024x1024) ![0, 0] S1024x1024.size inb_S1024x1024_S1024x1024_0_0

/-- The tile of the first result after the body: the logistic of the products of the two row blocks. -/
def tileA (x0 x1 : Vec F S1024x256 .bf16) : Vec F S1024x1024 .f32 :=
  View.canon [⟨rTile, k0_pay2 (View.ld x0 rZ) (View.ld x1 rZ)⟩]

/-- The tile of the second result after the body: the products rescaled by the two inverse norms where the graph ids agree. -/
def tileS (x0 x1 : Vec F S1024x256 .bf16) (x2 : Vec F S1024x1 .i32) (x3 : Vec F S1x1024 .i32) (x4 : Vec F S1024x1 .f32) (x5 : Vec F S1x1024 .f32) :
    Vec F S1024x1024 .f32 :=
  View.canon [⟨rTile, k0_pay3 (View.ld x0 rZ) (View.ld x1 rZ) (View.ld x2 rCol) (View.ld x3 rRow) (View.ld x4 rCol) (View.ld x5 rRow)⟩]

/-- One store through the whole tile covers it. -/
theorem tile_cover (p0 : Vec F S1024x1024 .f32) (y : S1024x1024.Idx) :
    ∃ pc ∈ ([⟨rTile, p0⟩] : List (View.Piece (Elt F) S1024x1024 .f32)), y ∈ pc.1.set :=
  View.cover_of_tiled [⟨rTile, p0⟩] S1024x1024.size (by rfl) y

/-! ## The body's triple -/

set_option maxHeartbeats 4000000 in
/-- On whole staging buffers, the six inputs' at contents `x0 … x5` and the two outputs' at anything, the body runs to
    its return leaving the inputs as they were and the outputs at the two tiles. -/
theorem sound_kernel (c : Dev nD) (E : Set ℕ) (i : grid0.Coords)
    (arg2 : Memref sig .tc .vmem S1024x256 .bf16) (harg2 : arg2.IsWhole) (arg3 : Memref sig .tc .vmem S1024x256 .bf16) (harg3 : arg3.IsWhole)
    (arg4 : Memref sig .tc .vmem S1024x1 .i32) (harg4 : arg4.IsWhole) (arg5 : Memref sig .tc .vmem S1x1024 .i32) (harg5 : arg5.IsWhole)
    (arg6 : Memref sig .tc .vmem S1024x1 .f32) (harg6 : arg6.IsWhole) (arg7 : Memref sig .tc .vmem S1x1024 .f32) (harg7 : arg7.IsWhole)
    (arg8 : Memref sig .tc .vmem S1024x1024 .f32) (harg8 : arg8.IsWhole) (arg9 : Memref sig .tc .vmem S1024x1024 .f32) (harg9 : arg9.IsWhole)
    (x0 x1 : Vec F S1024x256 .bf16) (x2 : Vec F S1024x1 .i32) (x3 : Vec F S1x1024 .i32) (x4 : Vec F S1024x1 .f32) (x5 : Vec F S1x1024 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (tileA x0 x1) ∗ owns (c : Thread nD τ) arg9 fullShare (tileS x0 x1 x2 x3 x4 x5)) -∗ K ⟨⟩))
      ⊢ wp frame (wpE (defs₀ (F := F)) Variants.none c none) E (cc0__kernel i arg2 harg2 arg3 harg3 arg4 harg4 arg5 harg5 arg6 harg6 arg7 harg7 arg8 harg8 arg9 harg9) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (tile_cover _)
  iexists _; isplitr
  swap; · iexact H7
  ipureintro
  exact View.read_writes_eq_canon _ _ _ (tile_cover _)

end Cert.Kernel.Region

end
-- ==== Proof.RunKernel.lean ====
/-
  The proof data of the region, the body at a generic grid point, and the run.

  After the body at point t each input window's staging buffer still holds its block and the two output
  windows' buffers hold the two tiles computed from the six blocks.  The bf16 copy of Z is read by two windows,
  so the first holds the left half of its share and the second the right half; every other array is held whole.
-/
import proofs.«156037_j34548716929568_2_alg».proof.Proof.RegionKernel

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## An input window's buffer holds its block at every point, fetched there or not -/

theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The arrays as the region finds them; after the body each input's buffer at its block, each output's at its tile;
    the invariant the scoped buffers that are no staging buffer; nothing owed; the twice-read array in halves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => tileA (iblk m c 0 t) (iblk m c 1 t)
    | ⟨7, _⟩ => tileS (iblk m c 0 t) (iblk m c 1 t) (iblk m c 2 t) (iblk m c 3 t) (iblk m c 4 t) (iblk m c 5 t)
  Φ _ := Pipeline.scopedRest spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = tileA (iblk m c 0 t) (iblk m c 1 t) := by dsimp only [dats]
theorem after7 (c : Dev nD) (t : Fin cfg0.N) : (dats m 0 c).after 7 t = tileS (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The arrays at entry, dealt among the windows -/

theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl
theorem share4 (c : Dev nD) : (dats m 0 c).share 4 = fullShare := rfl
theorem share5 (c : Dev nD) : (dats m 0 c).share 5 = fullShare := rfl
theorem share6 (c : Dev nD) : (dats m 0 c).share 6 = fullShare := rfl
theorem share7 (c : Dev nD) : (dats m 0 c).share 7 = fullShare := rfl

/-- The seven distinct buffers behind the eight windows' arrays, each whole at the full share, are the eight windows'
    arrays at their shares: the twice-read array's full share is its left half and its right half. -/
theorem arrays_of_bufs (c : Dev nD) :
    (Pipeline.arrBufs spec0 c (V m c) : sProp 𝕄) ⊢ (dats m 0 c).arrays ((dats m 0 c).arrAt · 0) := by
  have hR : (dats m 0 c).arrays ((dats m 0 c).arrAt · 0)
      = bigSep Finset.univ fun w : Fin 8 => (((c : Thread nD τ).loc (Pipeline.arrRef spec0 w)) ↦{(dats m 0 c).share w} V m c (Pipeline.arrRef spec0 w) : sProp 𝕄) := by
    unfold Dat.arrays
    exact bigSep_congr fun w _ => by rw [(arr_whole0 w).set_eq_univ]; rfl
  rw [hR, bigSep_W0, share0, share1, share2, share3, share4, share5, share6, share7]
  unfold Pipeline.arrBufs
  rw [bigSep_eq_bigSepL_of_eq [main_v6, main_v7, main_v8, main_v4, main_v5, main_v9_0, main_v9_1] (by decide) (by decide)]
  show (iprop((((c : Thread nD τ).loc main_v6) ↦{fullShare} V m c main_v6) ∗ (((c : Thread nD τ).loc main_v7) ↦{fullShare} V m c main_v7)
      ∗ (((c : Thread nD τ).loc main_v8) ↦{fullShare} V m c main_v8) ∗ (((c : Thread nD τ).loc main_v4) ↦{fullShare} V m c main_v4)
      ∗ (((c : Thread nD τ).loc main_v5) ↦{fullShare} V m c main_v5) ∗ (((c : Thread nD τ).loc main_v9_0) ↦{fullShare} V m c main_v9_0)
      ∗ (((c : Thread nD τ).loc main_v9_1) ↦{fullShare} V m c main_v9_1)) : sProp 𝕄) ⊢ _
  iintro ⟨H6, H7, H8, H4, H5, H90, H91⟩
  ihave H6' := (pointsTo_share (PosShare.mem_left_op_right fullShare)).1 $$ H6
  icases H6' with ⟨H6a, H6b⟩
  isplitl [H6a]; · iexact H6a
  isplitl [H6b]; · iexact H6b
  isplitl [H7]; · iexact H7
  isplitl [H8]; · iexact H8
  isplitl [H4]; · iexact H4
  isplitl [H5]; · iexact H5
  isplitl [H90]; · iexact H90
  iexact H91

/-! ## The run and the frame -/

set_option backward.isDefEq.respectTransparency.types false in
/-- Every weakly fair execution of @main terminates without a fault; at the end every window's array holds what the
    write-backs leave in it and every other unscoped buffer what the region found. -/
theorem run_main : θ_run defs (onTc (τ := τ) (main (F := F))) (s₀ m ρ) (Pipeline.FramePost cfgs (dats m) 0 (V m)) :=
  Pipeline.θ_run_frame_shared cfgs (dats m) (0 : Fin 1) defs₀ Variants.none cellOf_inj winFacts₀0 block_pos0 arr_whole0 stage_whole0 m ρ main
    (hbody := fun c => (body_obligation m c).loose) (howed := fun _ _ => rfl) (V := V m) (hmain := hmain m Variants.none)
    (hsplit := arrays_of_bufs m) (hin := fun _ => .rfl) (hout := fun _ => .rfl)

/-- The program runs to the end and leaves its two argument arrays as launched: no window stages them, and no host
    operation writes them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c)⟩) (run_main m ρ)

end Cert.Kernel.Region

end
-- ==== Proof.RegionKernelIdeal.lean ====
/-
  The run of the program's one pipelined region, with every array named.

  The region's grid is 8 × 8.  At point (i, j) the pipeline stages rows 1024·i … 1024·i+1023 of the bf16 copy of
  Z (window 0), rows 1024·j … 1024·j+1023 of THE SAME array (window 1), the matching 1024 graph ids as a column
  (window 2) and as a row (window 3), the matching inverse norms as a column (window 4) and as a row (window 5);
  the body stores one 1024 × 1024 tile into each of the two results (windows 6 and 7), and the tile is written
  back at block (i, j).  Two windows read one array, so its full share is dealt in halves between them.

  Stated for any float instance, so that the word-level program and its idealization share the text.
-/
import proofs.«156037_j34548716929568_2_alg».proof.Proof.Gen.KernelIdeal.Launch
import proofs.«156037_j34548716929568_2_alg».proof.Proof.Gen.KernelIdeal.Skeleton
import proofs.«156037_j34548716929568_2_alg».proof.Proof.Gen.KernelIdeal.Points
import proofs.«156037_j34548716929568_2_alg».proof.Proof.LibFrameShared
import Idealize.ShloMosaic.Lib.Pipeline.FrameBody
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- The core's buffers when the region is entered: the launch contents after the row norms' five operations and
    the ten operations that clamp, invert and re-lay them, narrow Z and re-lay the graph ids. -/
abbrev V (c : Dev nD) (b : Ref sig .tc) : Buf (Elt F) ((c : Thread nD τ).loc b) :=
  StableHlo.after (List.flatten [hostOps0, hostOps0_1]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor

/-- @main is those two lines of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1] (by simp only [List.Forall]; exact ⟨hostOps0_sub, hostOps0_1_sub⟩)
    (by simp only [List.Forall]; exact ⟨hostOps0_fresh, hostOps0_1_fresh⟩) main_chain

/-- No host operation writes Z: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.reshape_writes,
      StableHlo.ternary_writes, StableHlo.quaternary_writes, StableHlo.binaryIndexed_writes, Finset.mem_singleton]
    repeat' apply And.intro
    all_goals exact StableHlo.devRef_ne_of_ne (by decide)))
/-- No host operation writes the graph ids either. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, StableHlo.reshape_writes,
      StableHlo.ternary_writes, StableHlo.quaternary_writes, StableHlo.binaryIndexed_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses and what its two stores leave -/

abbrev rZ : Rect S1024x256 := Rect.unit (s := S1024x256) ![0, 0] S1024x256.size inb_S1024x256_S1024x256_0_0
abbrev rCol : Rect S1024x1 := Rect.unit (s := S1024x1) ![0, 0] S1024x1.size inb_S1024x1_S1024x1_0_0
abbrev rRow : Rect S1x1024 := Rect.unit (s := S1x1024) ![0, 0] S1x1024.size inb_S1x1024_S1x1024_0_0
abbrev rTile : Rect S1024x1024 := Rect.unit (s := S1024x1024) ![0, 0] S1024x1024.size inb_S1024x1024_S1024x1024_0_0

/-- The tile of the first result after the body: the logistic of the products of the two row blocks. -/
def tileA (x0 x1 : Vec F S1024x256 .bf16) : Vec F S1024x1024 .f32 :=
  View.canon [⟨rTile, k0_pay2 (View.ld x0 rZ) (View.ld x1 rZ)⟩]

/-- The tile of the second result after the body: the products rescaled by the two inverse norms where the graph ids agree. -/
def tileS (x0 x1 : Vec F S1024x256 .bf16) (x2 : Vec F S1024x1 .i32) (x3 : Vec F S1x1024 .i32) (x4 : Vec F S1024x1 .f32) (x5 : Vec F S1x1024 .f32) :
    Vec F S1024x1024 .f32 :=
  View.canon [⟨rTile, k0_pay3 (View.ld x0 rZ) (View.ld x1 rZ) (View.ld x2 rCol) (View.ld x3 rRow) (View.ld x4 rCol) (View.ld x5 rRow)⟩]

/-- One store through the whole tile covers it. -/
theorem tile_cover (p0 : Vec F S1024x1024 .f32) (y : S1024x1024.Idx) :
    ∃ pc ∈ ([⟨rTile, p0⟩] : List (View.Piece (Elt F) S1024x1024 .f32)), y ∈ pc.1.set :=
  View.cover_of_tiled [⟨rTile, p0⟩] S1024x1024.size (by rfl) y

/-! ## The body's triple -/

set_option maxHeartbeats 4000000 in
/-- On whole staging buffers, the six inputs' at contents `x0 … x5` and the two outputs' at anything, the body runs to
    its return leaving the inputs as they were and the outputs at the two tiles. -/
theorem sound_kernel (c : Dev nD) (E : Set ℕ) (i : grid0.Coords)
    (arg2 : Memref sig .tc .vmem S1024x256 .bf16) (harg2 : arg2.IsWhole) (arg3 : Memref sig .tc .vmem S1024x256 .bf16) (harg3 : arg3.IsWhole)
    (arg4 : Memref sig .tc .vmem S1024x1 .i32) (harg4 : arg4.IsWhole) (arg5 : Memref sig .tc .vmem S1x1024 .i32) (harg5 : arg5.IsWhole)
    (arg6 : Memref sig .tc .vmem S1024x1 .f32) (harg6 : arg6.IsWhole) (arg7 : Memref sig .tc .vmem S1x1024 .f32) (harg7 : arg7.IsWhole)
    (arg8 : Memref sig .tc .vmem S1024x1024 .f32) (harg8 : arg8.IsWhole) (arg9 : Memref sig .tc .vmem S1024x1024 .f32) (harg9 : arg9.IsWhole)
    (x0 x1 : Vec F S1024x256 .bf16) (x2 : Vec F S1024x1 .i32) (x3 : Vec F S1x1024 .i32) (x4 : Vec F S1024x1 .f32) (x5 : Vec F S1x1024 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d) ∗ (∃ d, owns (c : Thread nD τ) arg9 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (tileA x0 x1) ∗ owns (c : Thread nD τ) arg9 fullShare (tileS x0 x1 x2 x3 x4 x5)) -∗ K ⟨⟩))
      ⊢ wp frame (wpE (defs₀ (F := F)) Variants.none c none) E (cc0__kernel i arg2 harg2 arg3 harg3 arg4 harg4 arg5 harg5 arg6 harg6 arg7 harg7 arg8 harg8 arg9 harg9) K := by
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (tile_cover _)
  iexists _; isplitr
  swap; · iexact H7
  ipureintro
  exact View.read_writes_eq_canon _ _ _ (tile_cover _)

end Cert.KernelIdeal.Region

end
-- ==== Proof.RunKernelIdeal.lean ====
/-
  The proof data of the region, the body at a generic grid point, and the run.

  After the body at point t each input window's staging buffer still holds its block and the two output
  windows' buffers hold the two tiles computed from the six blocks.  The bf16 copy of Z is read by two windows,
  so the first holds the left half of its share and the second the right half; every other array is held whole.
-/
import proofs.«156037_j34548716929568_2_alg».proof.Proof.RegionKernelIdeal

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## An input window's buffer holds its block at every point, fetched there or not -/

theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The arrays as the region finds them; after the body each input's buffer at its block, each output's at its tile;
    the invariant the scoped buffers that are no staging buffer; nothing owed; the twice-read array in halves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => tileA (iblk m c 0 t) (iblk m c 1 t)
    | ⟨7, _⟩ => tileS (iblk m c 0 t) (iblk m c 1 t) (iblk m c 2 t) (iblk m c 3 t) (iblk m c 4 t) (iblk m c 5 t)
  Φ _ := Pipeline.scopedRest spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
    | ⟨7, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = tileA (iblk m c 0 t) (iblk m c 1 t) := by dsimp only [dats]
theorem after7 (c : Dev nD) (t : Fin cfg0.N) : (dats m 0 c).after 7 t = tileS (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' buffers hold their blocks, so the body's triple applies; the invariant and what
    the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The arrays at entry, dealt among the windows -/

theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl
theorem share4 (c : Dev nD) : (dats m 0 c).share 4 = fullShare := rfl
theorem share5 (c : Dev nD) : (dats m 0 c).share 5 = fullShare := rfl
theorem share6 (c : Dev nD) : (dats m 0 c).share 6 = fullShare := rfl
theorem share7 (c : Dev nD) : (dats m 0 c).share 7 = fullShare := rfl

/-- The seven distinct buffers behind the eight windows' arrays, each whole at the full share, are the eight windows'
    arrays at their shares: the twice-read array's full share is its left half and its right half. -/
theorem arrays_of_bufs (c : Dev nD) :
    (Pipeline.arrBufs spec0 c (V m c) : sProp 𝕄) ⊢ (dats m 0 c).arrays ((dats m 0 c).arrAt · 0) := by
  have hR : (dats m 0 c).arrays ((dats m 0 c).arrAt · 0)
      = bigSep Finset.univ fun w : Fin 8 => (((c : Thread nD τ).loc (Pipeline.arrRef spec0 w)) ↦{(dats m 0 c).share w} V m c (Pipeline.arrRef spec0 w) : sProp 𝕄) := by
    unfold Dat.arrays
    exact bigSep_congr fun w _ => by rw [(arr_whole0 w).set_eq_univ]; rfl
  rw [hR, bigSep_W0, share0, share1, share2, share3, share4, share5, share6, share7]
  unfold Pipeline.arrBufs
  rw [bigSep_eq_bigSepL_of_eq [main_v6, main_v7, main_v8, main_v4, main_v5, main_v9_0, main_v9_1] (by decide) (by decide)]
  show (iprop((((c : Thread nD τ).loc main_v6) ↦{fullShare} V m c main_v6) ∗ (((c : Thread nD τ).loc main_v7) ↦{fullShare} V m c main_v7)
      ∗ (((c : Thread nD τ).loc main_v8) ↦{fullShare} V m c main_v8) ∗ (((c : Thread nD τ).loc main_v4) ↦{fullShare} V m c main_v4)
      ∗ (((c : Thread nD τ).loc main_v5) ↦{fullShare} V m c main_v5) ∗ (((c : Thread nD τ).loc main_v9_0) ↦{fullShare} V m c main_v9_0)
      ∗ (((c : Thread nD τ).loc main_v9_1) ↦{fullShare} V m c main_v9_1)) : sProp 𝕄) ⊢ _
  iintro ⟨H6, H7, H8, H4, H5, H90, H91⟩
  ihave H6' := (pointsTo_share (PosShare.mem_left_op_right fullShare)).1 $$ H6
  icases H6' with ⟨H6a, H6b⟩
  isplitl [H6a]; · iexact H6a
  isplitl [H6b]; · iexact H6b
  isplitl [H7]; · iexact H7
  isplitl [H8]; · iexact H8
  isplitl [H4]; · iexact H4
  isplitl [H5]; · iexact H5
  isplitl [H90]; · iexact H90
  iexact H91

/-! ## The run and the frame -/

set_option backward.isDefEq.respectTransparency.types false in
/-- Every weakly fair execution of @main terminates without a fault; at the end every window's array holds what the
    write-backs leave in it and every other unscoped buffer what the region found. -/
theorem run_main : θ_run defs (onTc (τ := τ) (main (F := F))) (s₀ m ρ) (Pipeline.FramePost cfgs (dats m) 0 (V m)) :=
  Pipeline.θ_run_frame_shared cfgs (dats m) (0 : Fin 1) defs₀ Variants.none cellOf_inj winFacts₀0 block_pos0 arr_whole0 stage_whole0 m ρ main
    (hbody := fun c => (body_obligation m c).loose) (howed := fun _ _ => rfl) (V := V m) (hmain := hmain m Variants.none)
    (hsplit := arrays_of_bufs m) (hin := fun _ => .rfl) (hout := fun _ => .rfl)

/-- The program runs to the end and leaves its two argument arrays as launched: no window stages them, and no host
    operation writes them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c)⟩) (run_main m ρ)

end Cert.KernelIdeal.Region

end
-- ==== Proof.LibDotRows.lean ====
/-
  A matrix product that contracts the LAST axis of both operands, read at one entry.

  For `x : M × K` and `y : N × K` the product with dimension numbers "contract axis 1 of the left with axis 1 of the right, keep
  axis 0 of each" is the `M × N` array of inner products of ROWS: entry `(p, q)` is `∑ k, x[p, k] · y[q, k]`. Over the extended
  reals, accumulated into the zero array, that is the whole statement (`matmul_rows_apply`); the work is only to identify the
  product's own operand indices — computed from the dimension numbers — with the coordinate pairs `(p, k)` and `(q, k)`, and its
  one-axis contraction index with the coordinate `k`.
-/
import Idealize.ShloMosaic.PureOps.Ideal.Laws
import Idealize.ShloMosaic.Lib.ValueIdx

noncomputable section

open scoped BigOperators

namespace Cert.Lib.DotRows

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.transposedRhs M K N).contr.Idx) :
    ((DotDims.transposedRhs M K N).lhsIdx i c 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_cons_self)]
  rfl

/-- The right operand's kept axis 0 follows the output's axis 1. -/
theorem rhs_axis0 (i : (⟨2, ![M, N]⟩ : Shape).Idx) (c : (DotDims.transposedRhs M K N).contr.Idx) :
    ((DotDims.transposedRhs M K N).rhsIdx i c 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_cons_self)]
  rfl

/-- Each operand's contracted axis 1 follows the contraction index's one coordinate. -/
theorem lhs_axis1 (i : (⟨2, ![M, N]⟩ : Shape).Idx) (c : (DotDims.transposedRhs M K N).contr.Idx) :
    ((DotDims.transposedRhs M K N).lhsIdx i c 1).val = (c ⟨0, Nat.zero_lt_one⟩).val :=
  (DotDims.transposedRhs M K N).lhsIdx_val_of_single rfl i c
theorem rhs_axis1 (i : (⟨2, ![M, N]⟩ : Shape).Idx) (c : (DotDims.transposedRhs M K N).contr.Idx) :
    ((DotDims.transposedRhs M K N).rhsIdx i c 1).val = (c ⟨0, Nat.zero_lt_one⟩).val :=
  (DotDims.transposedRhs M K N).rhsIdx_val_of_single rfl i c

/-- So at output entry `(p, q)` and contraction coordinate `k` the left operand is read at `(p, k)` … -/
theorem lhsIdx_rows (p : Fin M) (q : Fin N) (k : Fin K) :
    (DotDims.transposedRhs M K N).lhsIdx (ix2 p q) ((contrEquiv1 (DotDims.transposedRhs M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.transposedRhs M K N) K rfl rfl k))

/-- … and the right operand at `(q, k)`. -/
theorem rhsIdx_rows (p : Fin M) (q : Fin N) (k : Fin K) :
    (DotDims.transposedRhs M K N).rhsIdx (ix2 p q) ((contrEquiv1 (DotDims.transposedRhs M K N) K rfl rfl).symm k) = ix2 q k :=
  funext fun a => Fin.ext (by
    match a with
    | ⟨0, _⟩ => exact rhs_axis0 _ _
    | ⟨1, _⟩ => exact (rhs_axis1 _ _).trans (contrEquiv1_symm_val (DotDims.transposedRhs M K N) K rfl rfl k))

/-- THE PRODUCT OF ROWS AT AN ENTRY. Over the extended reals, a matrix product with these dimension numbers (any record `D`
    that spells them: `hD`), accumulated into the zero array, holds at `(p, q)` the inner product of row `p` of the left operand
    and row `q` of the right: `∑ k, x[p, k] · y[q, k]`. -/
theorem matmul_rows_apply {φ₁ φ₂ : FTy} (D : DotDims ⟨2, ![M, K]⟩ ⟨2, ![N, K]⟩ ⟨2, ![M, N]⟩) (hD : D = DotDims.transposedRhs M K N)
    (prec : Option ContractPrecision) (x : FVec Ideal ⟨2, ![M, K]⟩ φ₁) (y : FVec Ideal ⟨2, ![N, K]⟩ φ₂) (p : Fin M) (q : Fin N) :
    FloatOps.matmul D prec x y (constant ⟨2, ![M, N]⟩ .f32 0x00000000#32) (ix2 p q) = ∑ k : Fin K, x (ix2 p k) * y (ix2 q k) := by
  subst hD
  rw [Ideal.matmul_constant_zero_apply, ← Equiv.sum_comp (contrEquiv1 (DotDims.transposedRhs M K N) K rfl rfl).symm]
  refine Finset.sum_congr rfl fun k _ => ?_
  rw [lhsIdx_rows, rhsIdx_rows]

/-- The same for the host's `dot_general`, which has no accumulator. -/
theorem dotGeneral_rows_apply {φ₁ φ₂ : FTy} (D : DotDims ⟨2, ![M, K]⟩ ⟨2, ![N, K]⟩ ⟨2, ![M, N]⟩) (hD : D = DotDims.transposedRhs M K N)
    (prec : Option ContractPrecision) (sched : HostSchedule) (x : FVec Ideal ⟨2, ![M, K]⟩ φ₁) (y : FVec Ideal ⟨2, ![N, K]⟩ φ₂)
    (p : Fin M) (q : Fin N) :
    FloatOps.dotGeneral D prec sched x y (ix2 p q) = ∑ k : Fin K, x (ix2 p k) * y (ix2 q k) := by
  subst hD
  rw [Ideal.dotGeneral_apply, ← Equiv.sum_comp (contrEquiv1 (DotDims.transposedRhs M K N) K rfl rfl).symm]
  refine Finset.sum_congr rfl fun k _ => ?_
  rw [lhsIdx_rows, rhsIdx_rows]

end Cert.Lib.DotRows

end
-- ==== Proof.LibColumns.lean ====
/-
  Column forms of layout operations, and a minimum taken along one axis, read at an index given by coordinates.

  A reduction that keeps its axis (`keepdims`) along the LAST axis of an `[a, b]` array leaves an `[a, 1]` column:
  the vector of per-row results cast from `[a]` to `[a, 1]`, later broadcast back over the `b` columns.  The two
  lemmas here read those operations at `ix2 …` indices, beside the library's row forms (`[a] → [1, a]`,
  `[1, b] → [a, b]`).  The third reads a `minimumf` reduction along one axis, at the ideal floats, as the fold of `min`
  from the accumulator's value over that axis's coordinates; the fourth says the f32 word `0x7F800000` is `⊤`.
-/
import Idealize.ShloMosaic.Lib.ValueLayout
import Idealize.ShloMosaic.PureOps.Ideal.Laws

namespace Idealize.ShloMosaic.ValueIdx

open Idealize.ShloMosaic

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float `vector.multi_reduction <minimumf>` over one axis, read at the ideal floats: the fold of `min` from the
    accumulator's value over that axis's coordinates (a column's minimum). -/
theorem multiReduction_minimumf_single {φ : FTy} {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The f32 word of `+∞` denotes `⊤`. -/
theorem ofBits_inf_f32 : Ideal.ofBits .f32 0x7F800000#32 = ⊤ := by
  simp [Ideal.ofBits, Ideal.ieee]

end Idealize.ShloMosaic.ValueIdx
-- ==== Proof.ReadKernelIdeal.lean ====
/-
  What the region finds in the five arrays its windows stage, and the body's two stores, read at an index.

  Before the region the host has: narrowed Z to bf16 (at the ideal floats, Z itself); laid the graph ids out as a
  column and as a row; computed for every row of Z its clamped norm n = max(√(Σ z²), ε) and the reciprocal 1 / n,
  as a column, and re-laid that column as a row.  The body's first store is the logistic of the inner product of a
  row of its first block with a row of its second; the second store is that inner product times the first row's
  reciprocal norm times the second row's, where the two graph ids agree, and zero elsewhere.
-/
import proofs.«156037_j34548716929568_2_alg».proof.Proof.RunKernelIdeal
import proofs.«156037_j34548716929568_2_alg».proof.Proof.LibDotRows
import proofs.«156037_j34548716929568_2_alg».proof.Proof.LibColumns
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Region

open Cert.KernelIdeal Cert.KernelIdeal.Gen
open Idealize.ShloMosaic Idealize.ShloMosaic.TcCoe Idealize.SL.Sem Idealize.ShloMosaic.StableHlo Idealize.ShloMosaic.ValueIdx

variable (m : (ℓ : Loc nD τ sig) → Buf (Elt Ideal) ℓ) (c : Dev nD)

/-! ## The arrays at region entry -/

/-- Each row's clamped norm, as an [8192, 1] column: the maximum of √(Σₖ z²) and the literal ε. -/
def norms (Z : FVec Ideal S8192x256 .f32) : FVec Ideal S8192x1 .f32 :=
  maximumf (Host.sqrt (broadcastInDim S8192x1 ![0] bcast_S8192_S8192x1_0
      (Host.reduceAdd (mulf Z Z) (constant (F := Ideal) S_ .f32 0x00000000#32) reducesTo_S8192x256_S8192_d1 h_S_)))
    (broadcastInDim S8192x1 ![] bcast_S_S8192x1 (constant (F := Ideal) S_ .f32 0x322BCC77#32))

/-- The reciprocals of the clamped norms, as a column. -/
def invNorms (Z : FVec Ideal S8192x256 .f32) : FVec Ideal S8192x1 .f32 :=
  Host.divf (broadcastInDim S8192x1 ![] bcast_S_S8192x1 (constant (F := Ideal) S_ .f32 0x3F800000#32)) (norms Z)

/-- The bf16 copy of Z is Z: narrowing is the identity on the ideal floats. -/
theorem V_v6 : (V m c main_v6 : S8192x256.Idx → EReal) = (m ((c : Thread nD τ).loc main_arg0) : S8192x256.Idx → EReal) := by
  dsimp only [V]
  simp only [hostOps0, hostOps0_1, List.flatten_cons, List.flatten_nil, List.append_nil, List.cons_append, List.nil_append]
  after_results; rfl

theorem V_v7 : (V m c main_v7 : S8192x1.Idx → BitVec 32) = shapeCast S8192x1 (m ((c : Thread nD τ).loc main_arg1)) shapeCasts_S8192_S8192x1 := by
  dsimp only [V]
  simp only [hostOps0, hostOps0_1, List.flatten_cons, List.flatten_nil, List.append_nil, List.cons_append, List.nil_append]
  after_results; rfl

theorem V_v8 : (V m c main_v8 : S1x8192.Idx → BitVec 32) = shapeCast S1x8192 (m ((c : Thread nD τ).loc main_arg1)) shapeCasts_S8192_S1x8192 := by
  dsimp only [V]
  simp only [hostOps0, hostOps0_1, List.flatten_cons, List.flatten_nil, List.append_nil, List.cons_append, List.nil_append]
  after_results; rfl

theorem V_v4 : (V m c main_v4 : S8192x1.Idx → EReal) = invNorms (m ((c : Thread nD τ).loc main_arg0)) := by
  dsimp only [V]
  simp only [hostOps0, hostOps0_1, List.flatten_cons, List.flatten_nil, List.append_nil, List.cons_append, List.nil_append]
  after_results; rfl

theorem V_v5 : (V m c main_v5 : S1x8192.Idx → EReal) = shapeCast S1x8192 (invNorms (m ((c : Thread nD τ).loc main_arg0))) shapeCasts_S8192x1_S1x8192 := by
  dsimp only [V]
  simp only [hostOps0, hostOps0_1, List.flatten_cons, List.flatten_nil, List.append_nil, List.cons_append, List.nil_append]
  after_results; rfl

/-! ## The same, at an index -/

theorem V_v6_apply (i : S8192x256.Idx) : V m c main_v6 i = m ((c : Thread nD τ).loc main_arg0) i := by
  rw [V_v6]

theorem V_v7_apply (i : Fin 8192) : V m c main_v7 (ix2 i (0 : Fin 1)) = m ((c : Thread nD τ).loc main_arg1) (ix1 i) := by
  rw [V_v7]; exact shapeCast_a_a1_apply _ _ i 0

theorem V_v8_apply (j : Fin 8192) : V m c main_v8 (ix2 (0 : Fin 1) j) = m ((c : Thread nD τ).loc main_arg1) (ix1 j) := by
  rw [V_v8]; exact shapeCast_a_1a_apply _ _ 0 j

theorem invNorms_apply (Z : FVec Ideal S8192x256 .f32) (i : S8192x1.Idx) :
    invNorms Z i = Ideal.div (Ideal.ofBits .f32 0x3F800000#32) (norms Z i) := rfl

theorem V_v4_apply (i : Fin 8192) :
    V m c main_v4 (ix2 i (0 : Fin 1)) = Ideal.div (Ideal.ofBits .f32 0x3F800000#32) (norms (m ((c : Thread nD τ).loc main_arg0)) (ix2 i (0 : Fin 1))) := by
  rw [V_v4]; rfl

/-- The row of reciprocals is the column re-laid: entry (0, j) is entry (j, 0). -/
theorem V_v5_apply (j : Fin 8192) :
    V m c main_v5 (ix2 (0 : Fin 1) j) = Ideal.div (Ideal.ofBits .f32 0x3F800000#32) (norms (m ((c : Thread nD τ).loc main_arg0)) (ix2 j (0 : Fin 1))) := by
  rw [V_v5]
  refine (shapeCast_apply _ shapeCasts_S8192x1_S1x8192 (ix2 (0 : Fin 1) j) (ix2 j (0 : Fin 1)) ?_).trans rfl
  rw [Shape.rowMajor_val_two, Shape.rowMajor_val_two]
  show j.val * 1 + 0 = 0 * 8192 + j.val
  omega

/-! ## The body's stores at an index -/

theorem dims_rows : dot_S1024x256_S1024x256_S1024x1024_1_1_0_0_n_n = DotDims.transposedRhs 1024 256 1024 := rfl

/-- The products: entry (p, q) is the inner product of row p of the first block and row q of the second. -/
theorem pay1_apply (x0 x1 : Vec Ideal S1024x256 .bf16) (p q : Fin 1024) :
    k0_pay1 (F := Ideal) x0 x1 (ix2 p q) = ∑ k : Fin 256, x0 (ix2 p k) * x1 (ix2 q k) := by
  unfold k0_pay1
  rw [shapeCast_self, shapeCast_self]
  exact Cert.Lib.DotRows.matmul_rows_apply _ dims_rows none x0 x1 p q

/-- The first store. -/
theorem pay2_apply (x0 x1 : Vec Ideal S1024x256 .bf16) (p q : Fin 1024) :
    k0_pay2 (F := Ideal) x0 x1 (ix2 p q) = Ideal.logistic (∑ k : Fin 256, x0 (ix2 p k) * x1 (ix2 q k)) := by
  unfold k0_pay2
  exact congrArg Ideal.logistic (pay1_apply x0 x1 p q)

/-- The second store. -/
theorem pay3_apply (x0 x1 : Vec Ideal S1024x256 .bf16) (x2 : Vec Ideal S1024x1 .i32) (x3 : Vec Ideal S1x1024 .i32)
    (x4 : Vec Ideal S1024x1 .f32) (x5 : Vec Ideal S1x1024 .f32) (p q : Fin 1024) :
    k0_pay3 (F := Ideal) x0 x1 x2 x3 x4 x5 (ix2 p q)
      = Scalar.select (IntOp.cmpi .eq (x2 (ix2 p (0 : Fin 1))) (x3 (ix2 (0 : Fin 1) q)))
          (((∑ k : Fin 256, x0 (ix2 p k) * x1 (ix2 q k)) * x4 (ix2 p (0 : Fin 1))) * x5 (ix2 (0 : Fin 1) q))
          (Ideal.ofBits .f32 0x00000000#32) := by
  unfold k0_pay3
  rw [shapeCast_self, shapeCast_self, shapeCast_self, shapeCast_self]
  show Scalar.select (IntOp.cmpi .eq (broadcastTo S1024x1024 x2 broadcasts_S1024x1_S1024x1024 (ix2 p q)) (broadcastTo S1024x1024 x3 broadcasts_S1x1024_S1024x1024 (ix2 p q)))
      ((k0_pay1 (F := Ideal) x0 x1 (ix2 p q) * broadcastTo S1024x1024 x4 broadcasts_S1024x1_S1024x1024 (ix2 p q)) * broadcastTo S1024x1024 x5 broadcasts_S1x1024_S1024x1024 (ix2 p q))
      (Ideal.ofBits .f32 0x00000000#32) = _
  rw [broadcastTo_a1_ab_apply x2, broadcastTo_1b_ab_apply x3, broadcastTo_a1_ab_apply x4, broadcastTo_1b_ab_apply x5, pay1_apply]

end Cert.KernelIdeal.Region

end
-- ==== Proof.ValueKernelIdeal.lean ====
/-
  From tiles to arrays: what the two result arrays hold after the run, as whole-array functions of Z and the ids.

  At grid point t = (i, j) the output tile's rectangle is rows 1024·i … and columns 1024·j … of the result; the
  first input block is rows 1024·i … of Z, the second rows 1024·j …, the column blocks of ids and reciprocal norms
  sit at rows 1024·i …, the row blocks at columns 1024·j ….  So entry (p, q) of the tile is the whole-array
  function at (1024·i + p, 1024·j + q), and the 64 tiles cover the 8192 × 8192 result.
-/
import proofs.«156037_j34548716929568_2_alg».proof.Proof.ReadKernelIdeal

set_option maxRecDepth 16384

noncomputable section

open scoped BigOperators

namespace Cert.KernelIdeal.Region

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg) (c : Dev nD)

/-! ## The two results as functions of the argument arrays -/

/-- The first result: the logistic of the inner product of rows y₀ and y₁ of Z. -/
def resA (Z : FVec Ideal S8192x256 .f32) : S8192x8192.Idx → EReal := fun y =>
  Ideal.logistic (∑ k : Fin 256, Z (ix2 (y 0) k) * Z (ix2 (y 1) k))

/-- The second result: that inner product times the two rows' reciprocal clamped norms where the graph ids agree, else zero. -/
def resS (Z : FVec Ideal S8192x256 .f32) (B : IVec S8192 32) : S8192x8192.Idx → EReal := fun y =>
  Scalar.select (IntOp.cmpi .eq (B (ix1 (y 0))) (B (ix1 (y 1))))
    (((∑ k : Fin 256, Z (ix2 (y 0) k) * Z (ix2 (y 1) k))
        * Ideal.div (Ideal.ofBits .f32 0x3F800000#32) (norms Z (ix2 (y 0) (0 : Fin 1))))
      * Ideal.div (Ideal.ofBits .f32 0x3F800000#32) (norms Z (ix2 (y 1) (0 : Fin 1))))
    (Ideal.ofBits .f32 0x00000000#32)

/-! ## The index maps, decided over the 64 grid points -/

theorem hz : (![0, 0] : Fin 2 → Nat) = fun _ => 0 := funext fun a => by fin_cases a <;> rfl

/-- Every input window moves with the output tile: the row windows with its row block, the column windows with its
    column block, and the two outputs together. -/
theorem idx_facts : ∀ t : Fin cfg0.N,
    win0_0.index t (0 : Fin 2) = win0_6.index t (0 : Fin 2) ∧ win0_0.index t (1 : Fin 2) = 0
    ∧ win0_1.index t (0 : Fin 2) = win0_6.index t (1 : Fin 2) ∧ win0_1.index t (1 : Fin 2) = 0
    ∧ win0_2.index t (0 : Fin 2) = win0_6.index t (0 : Fin 2) ∧ win0_2.index t (1 : Fin 2) = 0
    ∧ win0_3.index t (0 : Fin 2) = 0 ∧ win0_3.index t (1 : Fin 2) = win0_6.index t (1 : Fin 2)
    ∧ win0_4.index t (0 : Fin 2) = win0_6.index t (0 : Fin 2) ∧ win0_4.index t (1 : Fin 2) = 0
    ∧ win0_5.index t (0 : Fin 2) = 0 ∧ win0_5.index t (1 : Fin 2) = win0_6.index t (1 : Fin 2)
    ∧ win0_7.index t (0 : Fin 2) = win0_6.index t (0 : Fin 2) ∧ win0_7.index t (1 : Fin 2) = win0_6.index t (1 : Fin 2)
    ∧ win0_6.index t (0 : Fin 2) ≤ 7 ∧ win0_6.index t (1 : Fin 2) ≤ 7 :=
  (by decide +kernel : ∀ t : Fin grid0.N, _)

/-- Every one of the 8 × 8 tiles is some point's. -/
theorem idx_onto6 : ∀ (q0 q1 : Fin 8), ∃ t : Fin cfg0.N, win0_6.index t = ![q0.val, q1.val] :=
  (by decide +kernel : ∀ (q0 q1 : Fin 8), ∃ t : Fin grid0.N, win0_6.index t = ![q0.val, q1.val])
theorem idx_onto7 : ∀ (q0 q1 : Fin 8), ∃ t : Fin cfg0.N, win0_7.index t = ![q0.val, q1.val] :=
  (by decide +kernel : ∀ (q0 q1 : Fin 8), ∃ t : Fin grid0.N, win0_7.index t = ![q0.val, q1.val])

/-! ## Where each block's entries sit in its array -/

section Point

variable (t : Fin cfg0.N)

/-- The tile's first row and first column in the result. -/
abbrev rowOf (p : Fin 1024) : Fin 8192 := ⟨win0_6.index t (0 : Fin 2) * 1024 + p.val, by
  have := (idx_facts t).2.2.2.2.2.2.2.2.2.2.2.2.2.2.1; have := p.isLt; omega⟩
abbrev colOf (q : Fin 1024) : Fin 8192 := ⟨win0_6.index t (1 : Fin 2) * 1024 + q.val, by
  have := (idx_facts t).2.2.2.2.2.2.2.2.2.2.2.2.2.2.2; have := q.isLt; omega⟩

theorem emb0 (p : Fin 1024) (k : Fin 256) : ((cfg0.win 0).blk t).view.emb (ix2 p k) = ix2 (rowOf t p) k := by
  obtain ⟨e0, e1, -⟩ := idx_facts t
  funext a; apply Fin.ext
  match a with
  | ⟨0, _⟩ => show win0_0.index t (0 : Fin 2) * 1024 + 1 * p.val = win0_6.index t (0 : Fin 2) * 1024 + p.val; omega
  | ⟨1, _⟩ => show win0_0.index t (1 : Fin 2) * 256 + 1 * k.val = k.val; omega

theorem emb1 (q : Fin 1024) (k : Fin 256) : ((cfg0.win 1).blk t).view.emb (ix2 q k) = ix2 (colOf t q) k := by
  obtain ⟨-, -, e0, e1, -⟩ := idx_facts t
  funext a; apply Fin.ext
  match a with
  | ⟨0, _⟩ => show win0_1.index t (0 : Fin 2) * 1024 + 1 * q.val = win0_6.index t (1 : Fin 2) * 1024 + q.val; omega
  | ⟨1, _⟩ => show win0_1.index t (1 : Fin 2) * 256 + 1 * k.val = k.val; omega

theorem emb2 (p : Fin 1024) : ((cfg0.win 2).blk t).view.emb (ix2 p (0 : Fin 1)) = ix2 (rowOf t p) (0 : Fin 1) := by
  obtain ⟨-, -, -, -, e0, e1, -⟩ := idx_facts t
  funext a; apply Fin.ext
  match a with
  | ⟨0, _⟩ => show win0_2.index t (0 : Fin 2) * 1024 + 1 * p.val = win0_6.index t (0 : Fin 2) * 1024 + p.val; omega
  | ⟨1, _⟩ => show win0_2.index t (1 : Fin 2) * 1 + 1 * 0 = 0; omega

theorem emb3 (q : Fin 1024) : ((cfg0.win 3).blk t).view.emb (ix2 (0 : Fin 1) q) = ix2 (0 : Fin 1) (colOf t q) := by
  obtain ⟨-, -, -, -, -, -, e0, e1, -⟩ := idx_facts t
  funext a; apply Fin.ext
  match a with
  | ⟨0, _⟩ => show win0_3.index t (0 : Fin 2) * 1 + 1 * 0 = 0; omega
  | ⟨1, _⟩ => show win0_3.index t (1 : Fin 2) * 1024 + 1 * q.val = win0_6.index t (1 : Fin 2) * 1024 + q.val; omega

theorem emb4 (p : Fin 1024) : ((cfg0.win 4).blk t).view.emb (ix2 p (0 : Fin 1)) = ix2 (rowOf t p) (0 : Fin 1) := by
  obtain ⟨-, -, -, -, -, -, -, -, e0, e1, -⟩ := idx_facts t
  funext a; apply Fin.ext
  match a with
  | ⟨0, _⟩ => show win0_4.index t (0 : Fin 2) * 1024 + 1 * p.val = win0_6.index t (0 : Fin 2) * 1024 + p.val; omega
  | ⟨1, _⟩ => show win0_4.index t (1 : Fin 2) * 1 + 1 * 0 = 0; omega

theorem emb5 (q : Fin 1024) : ((cfg0.win 5).blk t).view.emb (ix2 (0 : Fin 1) q) = ix2 (0 : Fin 1) (colOf t q) := by
  obtain ⟨-, -, -, -, -, -, -, -, -, -, e0, e1, -⟩ := idx_facts t
  funext a; apply Fin.ext
  match a with
  | ⟨0, _⟩ => show win0_5.index t (0 : Fin 2) * 1 + 1 * 0 = 0; omega
  | ⟨1, _⟩ => show win0_5.index t (1 : Fin 2) * 1024 + 1 * q.val = win0_6.index t (1 : Fin 2) * 1024 + q.val; omega

theorem emb6 (p q : Fin 1024) : ((cfg0.win 6).blk t).view.emb (ix2 p q) = ix2 (rowOf t p) (colOf t q) := by
  funext a; apply Fin.ext
  match a with
  | ⟨0, _⟩ => show win0_6.index t (0 : Fin 2) * 1024 + 1 * p.val = win0_6.index t (0 : Fin 2) * 1024 + p.val; omega
  | ⟨1, _⟩ => show win0_6.index t (1 : Fin 2) * 1024 + 1 * q.val = win0_6.index t (1 : Fin 2) * 1024 + q.val; omega

theorem emb7 (p q : Fin 1024) : ((cfg0.win 7).blk t).view.emb (ix2 p q) = ix2 (rowOf t p) (colOf t q) := by
  obtain ⟨-, -, -, -, -, -, -, -, -, -, -, -, e0, e1, -⟩ := idx_facts t
  funext a; apply Fin.ext
  match a with
  | ⟨0, _⟩ => show win0_7.index t (0 : Fin 2) * 1024 + 1 * p.val = win0_6.index t (0 : Fin 2) * 1024 + p.val; omega
  | ⟨1, _⟩ => show win0_7.index t (1 : Fin 2) * 1024 + 1 * q.val = win0_6.index t (1 : Fin 2) * 1024 + q.val; omega

/-! ## The blocks' entries are the arrays' -/

theorem blk0_apply (p : Fin 1024) (k : Fin 256) : iblk m c 0 t (ix2 p k) = m ((c : Thread nD τ).loc main_arg0) (ix2 (rowOf t p) k) := by
  show V m c main_v6 (((cfg0.win 0).blk t).view.emb (ix2 p k)) = _
  rw [emb0, V_v6_apply]
theorem blk1_apply (q : Fin 1024) (k : Fin 256) : iblk m c 1 t (ix2 q k) = m ((c : Thread nD τ).loc main_arg0) (ix2 (colOf t q) k) := by
  show V m c main_v6 (((cfg0.win 1).blk t).view.emb (ix2 q k)) = _
  rw [emb1, V_v6_apply]
theorem blk2_apply (p : Fin 1024) : iblk m c 2 t (ix2 p (0 : Fin 1)) = m ((c : Thread nD τ).loc main_arg1) (ix1 (rowOf t p)) := by
  show V m c main_v7 (((cfg0.win 2).blk t).view.emb (ix2 p (0 : Fin 1))) = _
  rw [emb2, V_v7_apply]
theorem blk3_apply (q : Fin 1024) : iblk m c 3 t (ix2 (0 : Fin 1) q) = m ((c : Thread nD τ).loc main_arg1) (ix1 (colOf t q)) := by
  show V m c main_v8 (((cfg0.win 3).blk t).view.emb (ix2 (0 : Fin 1) q)) = _
  rw [emb3, V_v8_apply]
theorem blk4_apply (p : Fin 1024) : iblk m c 4 t (ix2 p (0 : Fin 1))
    = Ideal.div (Ideal.ofBits .f32 0x3F800000#32) (norms (m ((c : Thread nD τ).loc main_arg0)) (ix2 (rowOf t p) (0 : Fin 1))) := by
  show V m c main_v4 (((cfg0.win 4).blk t).view.emb (ix2 p (0 : Fin 1))) = _
  rw [emb4, V_v4_apply]
theorem blk5_apply (q : Fin 1024) : iblk m c 5 t (ix2 (0 : Fin 1) q)
    = Ideal.div (Ideal.ofBits .f32 0x3F800000#32) (norms (m ((c : Thread nD τ).loc main_arg0)) (ix2 (colOf t q) (0 : Fin 1))) := by
  show V m c main_v5 (((cfg0.win 5).blk t).view.emb (ix2 (0 : Fin 1) q)) = _
  rw [emb5, V_v5_apply]

/-! ## What point t writes back is its tile of the whole-array function -/

theorem flushed6_eq : (dats m 0 c).flushed 6 t
    = ((cfg0.win 6).blk t).view.read (Elt Ideal) (resA (m ((c : Thread nD τ).loc main_arg0))) := by
  show (cfg0.win 6).cut (grid0.coords t) ((dats m 0 c).after 6 t) = _
  rw [after6]
  unfold tileA
  rw [View.canon_unit_zero hz]
  simp only [View.ld_unit_zero (S := S1024x256) hz]
  funext j
  obtain ⟨p, q, rfl⟩ : ∃ (p q : Fin 1024), j = ix2 p q := ⟨j 0, j 1, eq_ix2 j⟩
  show k0_pay2 (F := Ideal) (iblk m c 0 t) (iblk m c 1 t) (ix2 p q)
    = resA (m ((c : Thread nD τ).loc main_arg0)) (((cfg0.win 6).blk t).view.emb (ix2 p q))
  refine (pay2_apply (iblk m c 0 t) (iblk m c 1 t) p q).trans ?_
  rw [emb6]
  unfold resA
  refine congrArg Ideal.logistic (Finset.sum_congr rfl fun k _ => ?_)
  rw [blk0_apply, blk1_apply]

theorem flushed7_eq : (dats m 0 c).flushed 7 t
    = ((cfg0.win 7).blk t).view.read (Elt Ideal) (resS (m ((c : Thread nD τ).loc main_arg0)) (m ((c : Thread nD τ).loc main_arg1))) := by
  show (cfg0.win 7).cut (grid0.coords t) ((dats m 0 c).after 7 t) = _
  rw [after7]
  unfold tileS
  rw [View.canon_unit_zero hz]
  simp only [View.ld_unit_zero (S := S1024x256) hz, View.ld_unit_zero (S := S1024x1) hz, View.ld_unit_zero (S := S1x1024) hz]
  funext j
  obtain ⟨p, q, rfl⟩ : ∃ (p q : Fin 1024), j = ix2 p q := ⟨j 0, j 1, eq_ix2 j⟩
  show k0_pay3 (F := Ideal) (iblk m c 0 t) (iblk m c 1 t) (iblk m c 2 t) (iblk m c 3 t) (iblk m c 4 t) (iblk m c 5 t) (ix2 p q)
    = resS (m ((c : Thread nD τ).loc main_arg0)) (m ((c : Thread nD τ).loc main_arg1)) (((cfg0.win 7).blk t).view.emb (ix2 p q))
  refine (pay3_apply (iblk m c 0 t) (iblk m c 1 t) (iblk m c 2 t) (iblk m c 3 t) (iblk m c 4 t) (iblk m c 5 t) p q).trans ?_
  rw [emb7]
  unfold resS
  rw [blk2_apply, blk3_apply, blk4_apply, blk5_apply]
  refine congrArg (fun s => Scalar.select _ ((s * _) * _) _) (Finset.sum_congr rfl fun k _ => ?_)
  rw [blk0_apply, blk1_apply]

/-- An index of the result is in point t's tile iff each coordinate is in the tile's range. -/
theorem mem_blk6 (i : S8192x8192.Idx) :
    i ∈ ((cfg0.win 6).blk t).view.set ↔ ∀ a : Fin 2, win0_6.index t a * S1024x1024.size a ≤ (i a).val ∧ (i a).val < win0_6.index t a * S1024x1024.size a + S1024x1024.size a := by
  show i ∈ ((View.whole main_v9_0).slice (win0_6.rect t)).set ↔ _
  rw [View.set_slice_whole, Rect.mem_set_unit]
  exact Iff.rfl
theorem mem_blk7 (i : S8192x8192.Idx) :
    i ∈ ((cfg0.win 7).blk t).view.set ↔ ∀ a : Fin 2, win0_7.index t a * S1024x1024.size a ≤ (i a).val ∧ (i a).val < win0_7.index t a * S1024x1024.size a + S1024x1024.size a := by
  show i ∈ ((View.whole main_v9_1).slice (win0_7.rect t)).set ↔ _
  rw [View.set_slice_whole, Rect.mem_set_unit]
  exact Iff.rfl

end Point

/-! ## The tiles cover the results -/

theorem cover6 (i : S8192x8192.Idx) : ∃ t : Fin cfg0.N, (cfg0.win 6).flush t = true ∧ i ∈ ((cfg0.win 6).blk t).view.set := by
  have hi0 : (i 0).val < 8192 := (i 0).isLt
  have hi1 : (i 1).val < 8192 := (i 1).isLt
  obtain ⟨t, ht⟩ := idx_onto6 ⟨(i 0).val / 1024, by omega⟩ ⟨(i 1).val / 1024, by omega⟩
  have q0 : win0_6.index t (0 : Fin 2) = (i 0).val / 1024 := congrFun ht 0
  have q1 : win0_6.index t (1 : Fin 2) = (i 1).val / 1024 := congrFun ht 1
  refine ⟨t, flush0_6 t, ?_⟩
  rw [mem_blk6]
  intro a
  match a with
  | ⟨0, _⟩ => show win0_6.index t (0 : Fin 2) * 1024 ≤ (i 0).val ∧ (i 0).val < win0_6.index t (0 : Fin 2) * 1024 + 1024; omega
  | ⟨1, _⟩ => show win0_6.index t (1 : Fin 2) * 1024 ≤ (i 1).val ∧ (i 1).val < win0_6.index t (1 : Fin 2) * 1024 + 1024; omega

theorem cover7 (i : S8192x8192.Idx) : ∃ t : Fin cfg0.N, (cfg0.win 7).flush t = true ∧ i ∈ ((cfg0.win 7).blk t).view.set := by
  have hi0 : (i 0).val < 8192 := (i 0).isLt
  have hi1 : (i 1).val < 8192 := (i 1).isLt
  obtain ⟨t, ht⟩ := idx_onto7 ⟨(i 0).val / 1024, by omega⟩ ⟨(i 1).val / 1024, by omega⟩
  have q0 : win0_7.index t (0 : Fin 2) = (i 0).val / 1024 := congrFun ht 0
  have q1 : win0_7.index t (1 : Fin 2) = (i 1).val / 1024 := congrFun ht 1
  refine ⟨t, flush0_7 t, ?_⟩
  rw [mem_blk7]
  intro a
  match a with
  | ⟨0, _⟩ => show win0_7.index t (0 : Fin 2) * 1024 ≤ (i 0).val ∧ (i 0).val < win0_7.index t (0 : Fin 2) * 1024 + 1024; omega
  | ⟨1, _⟩ => show win0_7.index t (1 : Fin 2) * 1024 ≤ (i 1).val ∧ (i 1).val < win0_7.index t (1 : Fin 2) * 1024 + 1024; omega

/-! ## The arrays after the run -/

theorem final6 : (dats m 0 c).arrAt 6 cfg0.N = resA (m ((c : Thread nD τ).loc main_arg0)) :=
  (dats m 0 c).arrAt_eq_of_cover 6 (resA (m ((c : Thread nD τ).loc main_arg0))) (fun t _ => flushed6_eq m c t) cover6

theorem final7 : (dats m 0 c).arrAt 7 cfg0.N = resS (m ((c : Thread nD τ).loc main_arg0)) (m ((c : Thread nD τ).loc main_arg1)) :=
  (dats m 0 c).arrAt_eq_of_cover 7 (resS (m ((c : Thread nD τ).loc main_arg0)) (m ((c : Thread nD τ).loc main_arg1))) (fun t _ => flushed7_eq m c t) cover7

/-- The run with both results named as functions of the arguments, and the arguments unchanged. -/
theorem run_value : θ_run defs (onTc (τ := τ) (main (F := Ideal))) ⟨m, fun _ => 0, ρ⟩ fun r => ∀ c : Dev nD,
      r.2.mem ((c : Thread nD τ).loc main_v9_0) = resA (m ((c : Thread nD τ).loc main_arg0))
      ∧ r.2.mem ((c : Thread nD τ).loc main_v9_1) = resS (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).1 6).trans (final6 m c), ((h c).1 7).trans (final7 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩)
    (run_main m ρ)

end Cert.KernelIdeal.Region

end
-- ==== Proof.CosineLaw.lean ====
/-
  The algebra that joins the two arrangements of the masked cosine matrix.

  One side forms the inner product of two rows of Z first and then multiplies it by the reciprocals of the two rows'
  clamped norms; the other divides each row by its clamped norm first and then forms the inner product.  Over the
  extended reals these agree when the entries are real and the norms are not zero: a quotient by a non-zero norm is
  the product with its inverse, the inverse of any extended real is a real (the inverse of an infinity is zero), and
  among reals the factors move across the finite sum.  The clamp makes every norm at least the positive literal
  below it, hence non-zero.
-/
import Idealize.ShloMosaic.PureOps.Ideal
import Idealize.ShloMosaic.PureOps.Ideal.Laws
import Idealize.ShloMosaic.Lib.ValueIdx

noncomputable section

open scoped BigOperators

namespace Cert.Cosine

open Idealize.ShloMosaic

/-- The coercion of the reals into the extended reals commutes with finite sums. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The inverse of an extended real is a real: the inverse of either infinity is zero. -/
theorem inv_real (n : EReal) : ∃ u : ℝ, n⁻¹ = (u : EReal) := by
  induction n using EReal.rec with
  | bot => exact ⟨0, by simp⟩
  | top => exact ⟨0, by simp⟩
  | coe r => exact ⟨r⁻¹, (EReal.coe_inv r).symm⟩

/-- Off zero the quotient is the product with the inverse. -/
theorem div_of_ne_zero (x n : EReal) (hn : n ≠ 0) : Ideal.div x n = x * n⁻¹ := by
  unfold Ideal.div; rw [if_neg hn]

/-- THE LAW.  For real entries and non-zero norms, the inner product rescaled by the two reciprocals is the inner
    product of the rescaled rows. -/
theorem rescale_sum {K : ℕ} (a b : Fin K → EReal) (ha : ∀ k, ∃ r : ℝ, a k = (r : EReal)) (hb : ∀ k, ∃ r : ℝ, b k = (r : EReal))
    (n n' : EReal) (hn : n ≠ 0) (hn' : n' ≠ 0) :
    ((∑ k, a k * b k) * Ideal.div 1 n) * Ideal.div 1 n' = ∑ k, Ideal.div (a k) n * Ideal.div (b k) n' := by
  choose α hα using ha
  choose β hβ using hb
  obtain ⟨u, hu⟩ := inv_real n
  obtain ⟨v, hv⟩ := inv_real n'
  simp only [div_of_ne_zero _ _ hn, div_of_ne_zero _ _ hn', hα, hβ, hu, hv, one_mul]
  simp only [← EReal.coe_mul, ← coe_sum]
  refine congrArg _ ?_
  rw [Finset.sum_mul, Finset.sum_mul]
  exact Finset.sum_congr rfl fun k _ => by ring

/-- The clamp's literal, the f32 nearest to 1e-8, is positive. -/
theorem eps_pos : (0 : EReal) < Ideal.ofBits .f32 0x322BCC77#32 := by
  simp [Ideal.ofBits, Ideal.ieee, -EReal.coe_mul]

/-- So a maximum with it is not zero. -/
theorem max_eps_ne_zero (x : EReal) : max x (Ideal.ofBits .f32 0x322BCC77#32) ≠ 0 :=
  (lt_of_lt_of_le eps_pos (le_max_right _ _)).ne'

/-- The f32 word of one denotes one. -/
theorem ofBits_one : Ideal.ofBits .f32 0x3F800000#32 = 1 := by
  simp [Ideal.ofBits, Ideal.ieee, -EReal.coe_mul]; norm_num

/-- An entry whose absolute value is below `+∞` is a real. -/
theorem real_of_abs_lt_top (x : EReal) (h : max x (-x) < ⊤) : ∃ r : ℝ, x = (r : EReal) := by
  induction x using EReal.rec with
  | bot => simp at h
  | top => simp at h
  | coe r => exact ⟨r, rfl⟩

end Cert.Cosine

end
-- ==== Proof.Bridge.lean ====
/-
  The reference computes the same two arrays.

  Its first result is 1 / (1 + exp(−s)) of the inner products s, spelt with host operations: the logistic.  Its
  second result divides every row of Z by its clamped norm, takes inner products of the divided rows, and keeps them
  where the graph ids agree.  Index by index the first is the kernel's function outright; the second is the
  kernel's by the law that moves the two reciprocal norms across the sum, which holds because the entries are real
  and the clamp keeps every norm above a positive literal.
-/
import proofs.«156037_j34548716929568_2_alg».proof.Proof.ValueKernelIdeal
import proofs.«156037_j34548716929568_2_alg».proof.Proof.Gen.ReferenceIdeal.Read
import proofs.«156037_j34548716929568_2_alg».proof.Proof.CosineLaw

noncomputable section

open scoped BigOperators

namespace Cert.Bridge

open Idealize.ShloMosaic Idealize.ShloMosaic.ValueIdx
open Cert.ReferenceIdeal Cert.ReferenceIdeal.Read

/-! ## The reference's composed index functions, as coordinates -/

theorem lidx1 (p q : Fin 8192) (k : Fin 256) : lidx_main_v1 (ix2 p q) k = ix2 p k :=
  funext fun a => Fin.ext (by match a with | ⟨0, _⟩ => rfl | ⟨1, _⟩ => rfl)
theorem ridx1 (p q : Fin 8192) (k : Fin 256) : idx_main_v0 (ridx_main_v1 (ix2 p q) k) = ix2 q k :=
  funext fun a => Fin.ext (by match a with | ⟨0, _⟩ => rfl | ⟨1, _⟩ => rfl)
theorem lidx14 (p q : Fin 8192) (k : Fin 256) : lidx_main_v14 (ix2 p q) k = ix2 p k :=
  funext fun a => Fin.ext (by match a with | ⟨0, _⟩ => rfl | ⟨1, _⟩ => rfl)
theorem ridx14 (p q : Fin 8192) (k : Fin 256) : idx_main_v13 (ridx_main_v14 (ix2 p q) k) = ix2 q k :=
  funext fun a => Fin.ext (by match a with | ⟨0, _⟩ => rfl | ⟨1, _⟩ => rfl)
theorem nidx (j : Fin 8192) (k : Fin 256) : idx_main_v11 (ix2 j k) = ix2 j (0 : Fin 1) :=
  funext fun a => Fin.ext (by match a with | ⟨0, _⟩ => rfl | ⟨1, _⟩ => rfl)
theorem bidx0 (p q : Fin 8192) : idx_main_v15 (idx_main_v17 (ix2 p q)) = ix1 p :=
  funext fun a => Fin.ext (by match a with | ⟨0, _⟩ => rfl)
theorem bidx1 (p q : Fin 8192) : idx_main_v16 (idx_main_v18 (ix2 p q)) = ix1 q :=
  funext fun a => Fin.ext (by match a with | ⟨0, _⟩ => rfl)

/-- Both programs clamp the same row norms. -/
theorem norms_eq (Z : FVec Ideal S8192x256 .f32) : Cert.KernelIdeal.Region.norms Z = val_main_v10 (F := Ideal) Z := rfl

/-! ## The first result -/

theorem refA (Z : FVec Ideal S8192x256 .f32) : val_main_v7 (F := Ideal) Z = Cert.KernelIdeal.Region.resA Z := by
  funext i
  obtain ⟨p, q, rfl⟩ : ∃ (p q : Fin 8192), i = ix2 p q := ⟨i 0, i 1, eq_ix2 i⟩
  rw [val_main_v7_apply, val_main_v6_apply, val_main_cst_0_apply, val_main_v5_apply, val_main_v4_apply, val_main_cst_apply,
    val_main_v3_apply, val_main_v2_apply, val_main_v1_apply]
  have hsum : (∑ k : Fin 256, Z (lidx_main_v1 (ix2 p q) k) * val_main_v0 (F := Ideal) Z (ridx_main_v1 (ix2 p q) k))
      = ∑ k : Fin 256, Z (ix2 p k) * Z (ix2 q k) :=
    Finset.sum_congr rfl fun k _ => by rw [val_main_v0_apply, lidx1, ridx1]
  rw [hsum]
  show Ideal.div (Ideal.ofBits .f32 0x3F800000#32) (Ideal.ofBits .f32 0x3F800000#32 + Ideal.exp (-(∑ k : Fin 256, Z (ix2 p k) * Z (ix2 q k))))
    = Ideal.logistic (∑ k : Fin 256, Z (ix2 p k) * Z (ix2 q k))
  rw [Cert.Cosine.ofBits_one]
  rfl

/-! ## The second result -/

theorem refS (Z : FVec Ideal S8192x256 .f32) (B : IVec S8192 32) (hZ : ∀ i, ∃ r : ℝ, Z i = (r : EReal)) :
    val_main_v20 (F := Ideal) Z B = Cert.KernelIdeal.Region.resS Z B := by
  funext i
  obtain ⟨p, q, rfl⟩ : ∃ (p q : Fin 8192), i = ix2 p q := ⟨i 0, i 1, eq_ix2 i⟩
  rw [val_main_v20_apply, val_main_v19_apply, val_main_v17_apply, val_main_v15_apply, val_main_v18_apply, val_main_v16_apply,
    val_main_call1_v0_apply, val_main_cst_2_apply, val_main_v14_apply, bidx0, bidx1]
  have hsum : (∑ k : Fin 256, val_main_v12 (F := Ideal) Z (lidx_main_v14 (ix2 p q) k) * val_main_v13 (F := Ideal) Z (ridx_main_v14 (ix2 p q) k))
      = ∑ k : Fin 256, Ideal.div (Z (ix2 p k)) (val_main_v10 (F := Ideal) Z (ix2 p (0 : Fin 1)))
          * Ideal.div (Z (ix2 q k)) (val_main_v10 (F := Ideal) Z (ix2 q (0 : Fin 1))) :=
    Finset.sum_congr rfl fun k _ => by
      rw [val_main_v13_apply, lidx14, ridx14, val_main_v12_apply, val_main_v12_apply, val_main_v11_apply, val_main_v11_apply, nidx, nidx]
      rfl
  rw [hsum]
  have hn : ∀ j : Fin 8192, val_main_v10 (F := Ideal) Z (ix2 j (0 : Fin 1)) ≠ 0 := fun j => by
    rw [val_main_v10_apply, val_main_v9_apply, val_main_cst_1_apply]
    exact Cert.Cosine.max_eps_ne_zero _
  unfold Cert.KernelIdeal.Region.resS
  rw [norms_eq, Cert.Cosine.ofBits_one]
  exact congrArg (fun s => Scalar.select _ s _)
    (Cert.Cosine.rescale_sum (fun k => Z (ix2 p k)) (fun k => Z (ix2 q k)) (fun k => hZ _) (fun k => hZ _) _ _ (hn p) (hn q)).symm

end Cert.Bridge

end
-- ==== Proof.FiniteInputs.lean ====
/-
  The precondition says every entry of Z is a real number.

  The printed predicate compares |z| with +∞ at every entry and takes the conjunction of all the comparisons.
  The conjunction being true, every comparison is; and an extended real whose absolute value is below +∞ is neither
  infinity.
-/
import proofs.«156037_j34548716929568_2_alg».proof.Pre_finite_inputs
import proofs.«156037_j34548716929568_2_alg».proof.Proof.CosineLaw
import proofs.«156037_j34548716929568_2_alg».proof.Proof.LibColumns
import Idealize.ShloMosaic.Lib.ReduceAll
import Idealize.ShloMosaic.Lib.ValueIdx

noncomputable section

namespace Cert.Cosine

open Idealize.ShloMosaic

theorem real_of_pre [Cert.Pre_finite_inputs.Facts] (Z : FVec Ideal Cert.Pre_finite_inputs.S8192x256 .f32)
    (B : IVec Cert.Pre_finite_inputs.S8192 32)
    (h : Cert.Pre_finite_inputs.fn (F := Ideal) Z B = fun _ => 1#1) (i : Cert.Pre_finite_inputs.S8192x256.Idx) :
    ∃ r : ℝ, Z i = (r : EReal) := by
  haveI : Subsingleton Cert.Pre_finite_inputs.S_.Idx := ⟨fun a b => funext fun d => d.elim0⟩
  have h0 := congrFun h ValueIdx.ix0
  dsimp only [Cert.Pre_finite_inputs.fn] at h0
  have h1 := Host.reduce_andi_all _ _ _ _ _ h0 i
  have h2 : Ideal.cmp .olt (max (Z i) (-(Z i))) (Ideal.ofBits .f32 0x7F800000#32) = 1#1 := h1
  rw [ValueIdx.ofBits_inf_f32] at h2
  refine real_of_abs_lt_top (Z i) ?_
  unfold Ideal.cmp at h2
  by_contra hlt
  simp [hlt] at h2

end Cert.Cosine

end
-- ==== Proof.lean ====
/-
  Dense reconstruction A = σ(Z Zᵀ) and the same-graph cosine matrix, for Z of 8192 rows and 256 columns and one
  graph id per row: a tiled kernel against the plain array program.

  THE KERNEL.  On the host, every row's clamped norm nᵢ = max(√(Σₖ zᵢₖ²), ε) and its reciprocal 1 / nᵢ; then an 8 × 8
  grid of 1024 × 1024 tiles.  Tile (i, j) forms the inner products s = Σₖ zₚₖ z_qₖ of the rows p of block i with the
  rows q of block j once, and stores σ(s) into the first result and, into the second, s · (1 / nₚ) · (1 / n_q) where
  the two rows' graph ids agree and 0 elsewhere.  The row blocks are read from a bf16 copy of Z, which at the ideal
  floats is Z; both row windows read that one array, so its share is split between them (LibFrameShared).

  THE REFERENCE.  σ spelt out as 1 / (1 + exp(−s)) for the first result; for the second, each row divided by its
  clamped norm first, zₚₖ / nₚ, then the inner products of the divided rows, masked by the same comparison.

  WHY THEY AGREE over the extended reals.  The first results are one function everywhere: the logistic is by
  definition that quotient, and the literal 1.0 denotes 1.  The second results agree on finite inputs: a norm is at
  least ε > 0, hence non-zero, so dividing by it is multiplying by its inverse; the inverse of an extended real is a
  real; the entries of Z are real by the precondition; and among reals
      (Σₖ aₖ bₖ) · u · v = Σₖ (aₖ u)(bₖ v)                                  (CosineLaw.rescale_sum).
  Without finiteness the step fails (an infinite entry times a zero inverse), so the precondition is used.

  The three frames: both kernel programs run to the end, fault nowhere and leave Z and the ids as launched (the run
  of the one region, RunKernel / RunKernelIdeal); the reference's frame is its run with the results dropped.  The
  idealization rewrote no operation, so its conjunct is trivial.
-/
import proofs.«156037_j34548716929568_2_alg».proof.Defs
import proofs.«156037_j34548716929568_2_alg».proof.Proof.Gen.Kernel
import proofs.«156037_j34548716929568_2_alg».proof.Proof.Gen.KernelIdeal
import proofs.«156037_j34548716929568_2_alg».proof.Proof.Gen.ReferenceIdeal
import proofs.«156037_j34548716929568_2_alg».proof.Proof.Gen.Pre_finite_inputs
import proofs.«156037_j34548716929568_2_alg».proof.Proof.Gen.ReferenceIdeal.Run
import proofs.«156037_j34548716929568_2_alg».proof.Proof.Gen.ReferenceIdeal.Read
import proofs.«156037_j34548716929568_2_alg».proof.Proof.RunKernel
import proofs.«156037_j34548716929568_2_alg».proof.Proof.ValueKernelIdeal
import proofs.«156037_j34548716929568_2_alg».proof.Proof.Bridge
import proofs.«156037_j34548716929568_2_alg».proof.Proof.FiniteInputs

noncomputable section

namespace Cert.Proof

open Idealize.ShloMosaic Idealize.ShloMosaic.TcCoe Idealize.SL.Sem

theorem frame_k : Cert.frame_Kernel := fun m ρ _ => Cert.Kernel.Region.frame m ρ

theorem frame_ki : Cert.frame_KernelIdeal := fun m ρ _ => Cert.KernelIdeal.Region.frame m ρ

/-- The reference's run, its two results dropped. -/
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- From memories that agree on Z and the ids, both programs end with the logistic of the rows' inner products and
    with the masked, norm-rescaled inner products. -/
theorem algebraic : Cert.algebraic_KernelIdeal_ReferenceIdeal := by
  intro m ρ m' ρ' hpre hagree
  have hZ : ∀ (c : Dev Cert.KernelIdeal.nD) i, ∃ r : ℝ,
      m ((c.tc : Thread Cert.KernelIdeal.nD Cert.KernelIdeal.τ).loc Cert.KernelIdeal.main_arg0) i = (r : EReal) :=
    fun c i => Cert.Cosine.real_of_pre _ _ (hpre c) i
  refine ⟨fun c => Cert.KernelIdeal.Region.resA (m ((c.tc : Thread Cert.KernelIdeal.nD Cert.KernelIdeal.τ).loc Cert.KernelIdeal.main_arg0)),
    fun c => Cert.KernelIdeal.Region.resS (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Region.run_value m ρ, ?_⟩
  refine (θ_run Cert.ReferenceIdeal.defs _ _).mono (fun r h c => ⟨?_, ?_, (h c).2.2⟩)
    (Cert.ReferenceIdeal.Value.run (F := Ideal) m' ρ')
  · rw [(h c).1, Cert.ReferenceIdeal.Read.val_main_v7_eq, Cert.Bridge.refA, (hagree c).1]
  · rw [(h c).2.1, Cert.ReferenceIdeal.Read.val_main_v20_eq, (hagree c).1, (hagree c).2]
    exact Cert.Bridge.refS _ _ (hZ c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
